-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S512x128 : Shape := ⟨2, ![512, 128]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S2048x512 .f32) (main_arg1 : FVec F S512x128 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Kernel.lean ====
abbrev S2048x512 : Shape := ⟨2, ![2048, 512]⟩
abbrev S512x128 : Shape := ⟨2, ![512, 128]⟩
abbrev S2048x128 : Shape := ⟨2, ![2048, 128]⟩
abbrev S1024x512 : Shape := ⟨2, ![1024, 512]⟩
abbrev S1024x128 : Shape := ⟨2, ![1024, 128]⟩
abbrev S2048x512x128 : Shape := ⟨3, ![2048, 512, 128]⟩
abbrev S128x256 : Shape := ⟨2, ![128, 256]⟩
abbrev S128x128 : Shape := ⟨2, ![128, 128]⟩
abbrev S128x256x128 : Shape := ⟨3, ![128, 256, 128]⟩
abbrev S128x128x1 : Shape := ⟨3, ![128, 128, 1]⟩
abbrev S128x1x128 : Shape := ⟨3, ![128, 1, 128]⟩
abbrev S128x128x128 : Shape := ⟨3, ![128, 128, 128]⟩

abbrev nBuf : Space → Nat
  | .hbm => 4
  | .vmem => 11
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x128, .f32⟩
  | .hbm, ⟨3, _⟩ => ⟨S2048x512x128, .f32⟩
  | .local _ .vmem, ⟨0, _⟩ => ⟨S1024x512, .f32⟩
  | .local _ .vmem, ⟨1, _⟩ => ⟨S1024x512, .f32⟩
  | .local _ .vmem, ⟨2, _⟩ => ⟨S512x128, .f32⟩
  | .local _ .vmem, ⟨3, _⟩ => ⟨S1024x128, .f32⟩
  | .local _ .vmem, ⟨4, _⟩ => ⟨S1024x128, .f32⟩
  | .local _ .vmem, ⟨5, _⟩ => ⟨S128x256, .f32⟩
  | .local _ .vmem, ⟨6, _⟩ => ⟨S128x256, .f32⟩
  | .local _ .vmem, ⟨7, _⟩ => ⟨S128x128, .f32⟩
  | .local _ .vmem, ⟨8, _⟩ => ⟨S128x128, .f32⟩
  | .local _ .vmem, ⟨9, _⟩ => ⟨S128x256x128, .f32⟩
  | .local _ .vmem, ⟨10, _⟩ => ⟨S128x256x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 2], ![false, false]⟩

def k1_mult1 : BitVec 32 :=
  let c0_i32 : BitVec 32 := 0#32
  let c128_i32 : BitVec 32 := 128#32
  let v2 : BitVec 32 := Scalar.muli c0_i32 c128_i32
  v2
def k1_off1 (c0_i32 : BitVec 32) : Fin 2 → Nat :=
  let c0_1 : Index := 0#32
  let c128_i32 : BitVec 32 := 128#32
  let v2 : BitVec 32 := Scalar.muli c0_i32 c128_i32
  let v3 : BitVec 32 := v2
  let v4 : Index := Scalar.indexCast v3
  ![0, v4.toNat]
def k1_off2 (c0_i32 : BitVec 32) : Fin 3 → Nat :=
  let c0_2 : Index := 0#32
  let c128_i32 : BitVec 32 := 128#32
  let v2 : BitVec 32 := Scalar.muli c0_i32 c128_i32
  let v3 : BitVec 32 := v2
  let v11 : Index := Scalar.indexCast v3
  let c0_3 : Index := 0#32
  ![0, v11.toNat, 0]
def k1_mult2 : BitVec 32 :=
  let c1_i32 : BitVec 32 := 1#32
  let c128_i32_4 : BitVec 32 := 128#32
  let v13 : BitVec 32 := Scalar.muli c1_i32 c128_i32_4
  v13
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S128x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x128x1 : S128x128.ShapeCasts S128x128x1
  shapeCasts_S128x128_S128x1x128 : S128x128.ShapeCasts S128x1x128
  broadcasts_S128x128x1_S128x128x128 : S128x128x1.Broadcasts S128x128x128
  broadcasts_S128x1x128_S128x128x128 : S128x1x128.Broadcasts S128x128x128
  h_S128x128x128 : 0 < S128x128x128.numel
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S2048x512.size a
  hwx0_0 : ∀ i : grid0.Coords, EltTy.bits .f32 = 32 ∨ (Rect.block (s := S2048x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S2048x128.size a
  hwx0_2 : ∀ i : grid0.Coords, EltTy.bits .f32 = 32 ∨ (Rect.block (s := S2048x128) S1024x128.size (cc0_transform_2 i) (hinb0_2 i)).WholeWords (EltTy.packing .f32)
  hrank1 : 0 < grid1.rank
  k1_mult1_dvd : 128 ∣ k1_mult1.toNat
  k1_off1_inb : ∀ (r : Fin 2), ∀ a, (k1_off1 (BitVec.ofNat 32 r.val)) a + S128x128.size a ≤ S128x256.size a
  k1_off2_inb : ∀ (r : Fin 2), ∀ a, (k1_off2 (BitVec.ofNat 32 r.val)) a + S128x128x128.size a ≤ S128x256x128.size a
  k1_mult2_dvd : 128 ∣ k1_mult2.toNat
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x256.size a ≤ S2048x512.size a
  hwx1_0 : ∀ i : grid1.Coords, EltTy.bits .f32 = 32 ∨ (Rect.block (s := S2048x512) S128x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S2048x128.size a
  hwx1_1 : ∀ i : grid1.Coords, EltTy.bits .f32 = 32 ∨ (Rect.block (s := S2048x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x256x128.size a ≤ S2048x512x128.size a
  hwx1_2 : ∀ i : grid1.Coords, EltTy.bits .f32 = 32 ∨ (Rect.block (s := S2048x512x128) S128x256x128.size (cc1_transform_2 i) (hinb1_2 i)).WholeWords (EltTy.packing .f32)

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S128x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x256x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2048x512 : Shape := ⟨2, ![2048, 512]⟩
abbrev S512x128 : Shape := ⟨2, ![512, 128]⟩
abbrev S2048x128 : Shape := ⟨2, ![2048, 128]⟩
abbrev S2048x512x1 : Shape := ⟨3, ![2048, 512, 1]⟩
abbrev S2048x1x128 : Shape := ⟨3, ![2048, 1, 128]⟩
abbrev S2048x512x128 : Shape := ⟨3, ![2048, 512, 128]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S2048x128, .f32⟩
  | .hbm, ⟨3, _⟩ => ⟨S2048x512x1, .f32⟩
  | .hbm, ⟨4, _⟩ => ⟨S2048x1x128, .f32⟩
  | .hbm, ⟨5, _⟩ => ⟨S2048x512x128, .f32⟩
  | .hbm, ⟨6, _⟩ => ⟨S2048x512x128, .f32⟩
  | .hbm, ⟨7, _⟩ => ⟨S2048x512x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S2048x512_S2048x512x1_0_1 : S2048x512.BroadcastsInDim S2048x512x1 (![0, 1] : Fin 2 → Fin S2048x512x1.rank)
  bcast_S2048x128_S2048x1x128_0_2 : S2048x128.BroadcastsInDim S2048x1x128 (![0, 2] : Fin 2 → Fin S2048x1x128.rank)
  bcast_S2048x512x1_S2048x512x128_0_1_2 : S2048x512x1.BroadcastsInDim S2048x512x128 (![0, 1, 2] : Fin 3 → Fin S2048x512x128.rank)
  bcast_S2048x1x128_S2048x512x128_0_1_2 : S2048x1x128.BroadcastsInDim S2048x512x128 (![0, 1, 2] : Fin 3 → Fin S2048x512x128.rank)
  dot_S2048x512_S512x128_S2048x128_1_0_0_1_n_n_wf : DotDims.WF S2048x512 S512x128 S2048x128 [1] [0] [0] [1] [] []

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

class Facts : Prop extends Facts₀ where

variable [Facts]
-- ==== Proof.KernelRun.lean ====
/-
  The idealized kernel's run with its result array named. @main is two kernel regions in a row: the first
  writes the product array dW, the second reads dW beside the densities and writes the result. The run below is
  the program's run through both regions, read at the end against the final memory: the result buffer holds what
  the second region's write-backs leave in its output array, entered from the memory the first region left, and
  the two argument arrays are as launched.
-/
import proofs.«155502_j24240795419358_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The memory after the second region, at the result buffer: the second region's output array after all its
    write-backs, the region entered from the memory the first region left. -/
theorem result_after (c : Dev nD) :
    W2 m ρ c (Proc.devRef .tc main_v1) = (dat1 (V1 m ρ) c).arrAt 2 cfg1.N :=
  W2_arr m ρ c 2

/-- The memory the second region is entered from, at the product buffer: the first region's output array after
    all its write-backs, the region entered from the launch memory. -/
theorem product_after (c : Dev nD) :
    V1 m ρ c main_v0 = (dat0 (V0 m ρ) c).arrAt 2 cfg0.N :=
  W1_arr m ρ c 2

/-- The memory the second region is entered from, at the densities: as launched (the first region only reads
    them). -/
theorem densities_after (c : Dev nD) :
    V1 m ρ c main_arg0 = m ((c : Thread nD τ).loc main_arg0) :=
  (W1_arr m ρ c 0).trans (((dat0 (V0 m ρ) c).arrAt_in 0 rfl _).trans (A_eq0 (V0 m ρ) c 0))

set_option backward.isDefEq.respectTransparency.types false in
/-- Every weakly fair execution of @main terminates, nothing faulting; the result buffer ends at the second
    region's output array and the arguments end as launched. -/
theorem run_named : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (result_after m ρ c),
       (h c _ (mem_uc main_arg0 (by decide))).trans (W2_main_arg0 m ρ c),
       (h c _ (mem_uc main_arg1 (by decide))).trans (W2_main_arg1 m ρ c)⟩)

end Cert.KernelIdeal.Named

end
-- ==== Proof.Spec.lean ====
/-
  What both programs compute, as one function of the two argument arrays, at the ideal values
  (every float an extended real, every operation exact). From the densities d (2048 × 512) and the weights w
  (512 × 128): the product array p = d · w, p (n, k) = Σ_j d (n, j) · w (j, k); and the result, for each row n the
  outer product of d's row with p's row: out (n, i, k) = d (n, i) · p (n, k). No law of the extended reals is
  used anywhere: both programs multiply the same two factors in the same order, and both matrix products are
  the same sum.
-/
import Idealize.ShloMosaic.Lib.ValueIdx
import Idealize.ShloMosaic.PureOps.Ideal

noncomputable section

namespace Cert.Spec

open Idealize.ShloMosaic Idealize.ShloMosaic.ValueIdx
open scoped BigOperators

/-- The product array: entry (n, k) is the sum over j of d (n, j) · w (j, k). -/
def product (d : FVec Ideal ⟨2, ![2048, 512]⟩ .f32) (w : FVec Ideal ⟨2, ![512, 128]⟩ .f32) :
    FVec Ideal ⟨2, ![2048, 128]⟩ .f32 :=
  fun i => ∑ j : Fin 512, d (ix2 (i 0) j) * w (ix2 j (i 1))

/-- Row by row, the outer product of d's row with p's row: entry (n, i, k) is d (n, i) · p (n, k). -/
def outer (d : FVec Ideal ⟨2, ![2048, 512]⟩ .f32) (p : FVec Ideal ⟨2, ![2048, 128]⟩ .f32) :
    FVec Ideal ⟨3, ![2048, 512, 128]⟩ .f32 :=
  fun i => d (ix2 (i 0) (i 1)) * p (ix2 (i 0) (i 2))

/-- The result: the outer product of the densities with their product with the weights. -/
def result (d : FVec Ideal ⟨2, ![2048, 512]⟩ .f32) (w : FVec Ideal ⟨2, ![512, 128]⟩ .f32) :
    FVec Ideal ⟨3, ![2048, 512, 128]⟩ .f32 :=
  outer d (product d w)

end Cert.Spec

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.Dw.lean ====
/-
  The first region's output array. The grid has two points; point t stages rows 1024·t … 1024·t + 1023 of the
  densities and the whole weight matrix, and writes back rows 1024·t … of the product array. Its body rounds both
  blocks to a narrower float format (the identity at the ideal values) and multiplies them on the matrix unit into
  a zero accumulator, so entry (p, q) of what it stores is the sum over j of block row p of d times column q of w.
  Row p of block t is row 1024·t + p of d, so every point writes its block of ONE array, the product d · w, and
  the two blocks tile the array.
-/
import proofs.«155502_j24240795419358_2_alg».proof.Proof.Gen.KernelIdeal.Frame
import proofs.«155502_j24240795419358_2_alg».proof.Proof.Spec
import proofs.«155502_j24240795419358_2_alg».proof.Proof.LibDot
import Idealize.ShloMosaic.Lib.Pipeline.Value

set_option maxRecDepth 16384

noncomputable section

namespace Cert.KernelIdeal.Dw

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at (p, q): the sum over j of the densities block at (p, j) times the weights at (j, q).
    The two roundings to the narrower format are the identity at the ideal values; the matrix unit's product into
    a zero accumulator is the plain sum. -/
theorem stored_apply (x0 : Vec Ideal S1024x512 .f32) (x1 : Vec Ideal S512x128 .f32) (j : S1024x128.Idx) :
    k0_pay1 x0 x1 j = ∑ k : Fin 512, x0 (ix2 (j 0) k) * x1 (ix2 k (j 1)) := by
  rw [eq_ix2 j]
  exact Cert.LibDot.matmul_zero_apply dot_S1024x512_S512x128_S1024x128_1_0_0_1_n_n_wf none
    (truncf .bf16 x0 bitsLt_bf16_f32) (truncf .bf16 x1 bitsLt_bf16_f32) (j 0) (j 1)

/-- The printed index maps over the two grid points: the densities' block moves with the output's along the rows
    and sits at column block 0; the weights' block is always the whole matrix. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 1
    ∧ win0_2.index t (1 : Fin 2) = 0 :=
  (by decide +kernel : ∀ t : Fin grid0.N, _)

/-- Each of the two row blocks is some point's. -/
theorem idx_onto : ∀ q0 : Fin 2, ∃ t : Fin cfg0.N, win0_2.index t = ![q0.val, 0] :=
  (by decide +kernel : ∀ q0 : Fin 2, ∃ t : Fin grid0.N, win0_2.index t = ![q0.val, 0])

/-- What point t writes back is block t of the product of the arrays the region finds. -/
theorem flushed_eq (c : Dev nD) (t : Fin cfg0.N) :
    (dat0 V c).flushed 2 t
      = ((cfg0.win 2).blk t).view.read (Elt Ideal) (Cert.Spec.product (V c main_arg0) (V c main_arg1)) := by
  show (cfg0.win 2).cut (grid0.coords t) ((dat0 V c).after 2 t) = _
  rw [after0_2]
  unfold out0_2
  rw [View.canon_unit_zero zero_offsets]
  simp only [View.ld_unit_zero (S := S1024x512) zero_offsets, View.ld_unit_zero (S := S512x128) zero_offsets]
  obtain ⟨e0, e1, e2, e3, e4, e5⟩ := idx_facts t
  funext j
  refine (stored_apply (iblk0 V c 0 t) (iblk0 V c 1 t) j).trans ?_
  show ∑ k : Fin 512, FloatOps.mulf (F := Ideal) (φ := .f32) (V c main_arg0 (((cfg0.win 0).blk t).view.emb (ix2 (j 0) k))) (V c main_arg1 (((cfg0.win 1).blk t).view.emb (ix2 k (j 1))))
    = ∑ k : Fin 512, FloatOps.mulf (F := Ideal) (φ := .f32) (V c main_arg0 (ix2 ((((cfg0.win 2).blk t).view.emb j) 0) k)) (V c main_arg1 (ix2 k ((((cfg0.win 2).blk t).view.emb j) 1)))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 512 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega
  rw [h0, h1]
  rfl

/-- An index of the product array is in point t's block iff each coordinate is in the block's range. -/
theorem mem_blk (t : Fin cfg0.N) (i : S2048x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v0).slice (win0_2.rect t)).set ↔ _
  rw [View.set_slice_whole, Rect.mem_set_unit]
  exact Iff.rfl

/-- The two blocks tile the product array: row r is in the block of point r / 1024. -/
theorem cover (i : S2048x128.Idx) :
    ∃ t : Fin cfg0.N, (cfg0.win 2).flush t = true ∧ i ∈ ((cfg0.win 2).blk t).view.set := by
  have hi0 : (i 0).val < 2048 := (i 0).isLt
  have hi1 : (i 1).val < 128 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- After the first region its output array is the product of the densities and the weights it found. -/
theorem product_array (c : Dev nD) :
    (dat0 V c).arrAt 2 cfg0.N = Cert.Spec.product (V c main_arg0) (V c main_arg1) :=
  (dat0 V c).arrAt_eq_of_cover 2 _ (fun t _ => flushed_eq V c t) cover

end Cert.KernelIdeal.Dw

end
-- ==== Proof.Outer.lean ====
/-
  The second region's output array. The grid is 16 × 2; point (n, g) stages rows 128·n … of the densities at
  columns 256·g …, rows 128·n … of the product array, and writes back the block of the result at rows 128·n …,
  middle positions 256·g …. Its body stores the block in two halves along the middle axis: half h holds, at
  (a, b, k), the densities block at (a, 128·h + b) times the product block at (a, k) — each factor a two-axis
  block given a unit axis and spread along it. So the whole stored block is, at (a, b', k), the densities block at
  (a, b') times the product block at (a, k); row a of block (n, g) is row 128·n + a of both arrays, so every point
  writes its block of ONE array, the row-by-row outer product, and the 32 blocks tile it.
-/
import proofs.«155502_j24240795419358_2_alg».proof.Proof.Gen.KernelIdeal.Frame
import proofs.«155502_j24240795419358_2_alg».proof.Proof.Spec
import Idealize.ShloMosaic.Lib.Pipeline.Value
import Idealize.ShloMosaic.Lib.ValueIdx

set_option maxRecDepth 16384

noncomputable section

namespace Cert.KernelIdeal.Outer

open Cert.KernelIdeal Cert.KernelIdeal.Gen Idealize.ShloMosaic Idealize.ShloMosaic.TcCoe Idealize.SL.Sem
open Idealize.ShloMosaic.ValueIdx
open Idealize.ShloMosaic.Pipeline (Dat)

/-! ## The stored value of one half, at an index -/

/-- A two-axis block given a trailing unit axis reads, at (a, b, 0), the block at (a, b). -/
theorem cast_tail (v : Vec Ideal S128x128 .f32) (a b : Fin 128) (z : Fin 1) :
    shapeCast S128x128x1 v shapeCasts_S128x128_S128x128x1 (ix3 a b z) = v (ix2 a b) :=
  shapeCast_apply v _ _ _ (by
    rw [Shape.rowMajor_val_two, Shape.rowMajor_val_three]
    show a.val * 128 + b.val = (a.val * 128 + b.val) * 1 + z.val
    omega)

/-- A two-axis block given a middle unit axis reads, at (a, 0, k), the block at (a, k). -/
theorem cast_mid (v : Vec Ideal S128x128 .f32) (a k : Fin 128) (z : Fin 1) :
    shapeCast S128x1x128 v shapeCasts_S128x128_S128x1x128 (ix3 a z k) = v (ix2 a k) :=
  shapeCast_apply v _ _ _ (by
    rw [Shape.rowMajor_val_two, Shape.rowMajor_val_three]
    show a.val * 128 + k.val = (a.val * 1 + z.val) * 128 + k.val
    omega)

/-- Spreading along the trailing unit axis: (a, b, k) reads (a, b, 0). -/
theorem spread_tail (x : Vec Ideal S128x128x1 .f32) (a b k : Fin 128) :
    broadcastTo S128x128x128 x broadcasts_S128x128x1_S128x128x128 (ix3 a b k) = x (ix3 a b (0 : Fin 1)) :=
  broadcastTo_apply x _ _ _ (fun ax => match ax with
    | ⟨0, _⟩ => by show a.val = if (128 : Nat) = 1 then 0 else a.val; rw [if_neg (by decide)]
    | ⟨1, _⟩ => by show b.val = if (128 : Nat) = 1 then 0 else b.val; rw [if_neg (by decide)]
    | ⟨2, _⟩ => by show 0 = if (1 : Nat) = 1 then 0 else k.val; rw [if_pos rfl])

/-- Spreading along the middle unit axis: (a, b, k) reads (a, 0, k). -/
theorem spread_mid (x : Vec Ideal S128x1x128 .f32) (a b k : Fin 128) :
    broadcastTo S128x128x128 x broadcasts_S128x1x128_S128x128x128 (ix3 a b k) = x (ix3 a (0 : Fin 1) k) :=
  broadcastTo_apply x _ _ _ (fun ax => match ax with
    | ⟨0, _⟩ => by show a.val = if (128 : Nat) = 1 then 0 else a.val; rw [if_neg (by decide)]
    | ⟨1, _⟩ => by show 0 = if (1 : Nat) = 1 then 0 else b.val; rw [if_pos rfl]
    | ⟨2, _⟩ => by show k.val = if (128 : Nat) = 1 then 0 else k.val; rw [if_neg (by decide)])

/-- One half's stored value at (a, b, k): the densities half-block at (a, b) times the product block at (a, k). -/
theorem stored_apply (p d : Vec Ideal S128x128 .f32) (a b k : Fin 128) :
    k1_pay2 p d (ix3 a b k) = FloatOps.mulf (F := Ideal) (φ := .f32) (d (ix2 a b)) (p (ix2 a k)) := by
  unfold k1_pay2 k1_pay1
  show FloatOps.mulf (F := Ideal) (φ := .f32)
      (broadcastTo S128x128x128 (shapeCast S128x128x1 d shapeCasts_S128x128_S128x128x1) broadcasts_S128x128x1_S128x128x128 (ix3 a b k))
      (broadcastTo S128x128x128 (shapeCast S128x1x128 (shapeCast S128x128 p shapeCasts_S128x128_S128x128) shapeCasts_S128x128_S128x1x128) broadcasts_S128x1x128_S128x128x128 (ix3 a b k)) = _
  rw [shapeCast_self, spread_tail, spread_mid, cast_tail, cast_mid]

/-! ## The whole stored block -/

/-- The block a point stores, from its two input blocks: at (a, b, k) the densities block at (a, b) times the
    product block at (a, k). -/
def blockOuter (x0 : Vec Ideal S128x256 .f32) (x1 : Vec Ideal S128x128 .f32) : Vec Ideal S128x256x128 .f32 :=
  fun y => FloatOps.mulf (F := Ideal) (φ := .f32) (x0 (ix2 (y 0) (y 1))) (x1 (ix2 (y 0) (y 2)))

/-- The second half's stored value is the first half's function of its two loads (the body repeats the same
    operations on the second half-block). -/
theorem second_half : k1_pay3 (F := Ideal) = k1_pay2 (F := Ideal) := rfl

/-- The half stored at middle offset o, from the densities half-block loaded at column offset o and the whole
    product block: at the half's index x it is the whole block's value at x placed at offset o. -/
theorem half_eq (x0 : Vec Ideal S128x256 .f32) (x1 : Vec Ideal S128x128 .f32) (o : Nat)
    (inbp : ∀ a, (![0, 0] : Fin 2 → Nat) a + (![128, 128] : Fin 2 → Nat) a ≤ S128x128.size a)
    (inbd : ∀ a, (![0, o] : Fin 2 → Nat) a + (![128, 128] : Fin 2 → Nat) a ≤ S128x256.size a)
    (inbo : ∀ a, (![0, o, 0] : Fin 3 → Nat) a + (![128, 128, 128] : Fin 3 → Nat) a ≤ S128x256x128.size a)
    (x : S128x128x128.Idx) :
    k1_pay2 (View.ld x1 (Rect.unit (s := S128x128) ![0, 0] ![128, 128] inbp)) (View.ld x0 (Rect.unit (s := S128x256) ![0, o] ![128, 128] inbd)) x
      = blockOuter x0 x1 ((Rect.unit (s := S128x256x128) ![0, o, 0] ![128, 128, 128] inbo).emb x) := by
  obtain ⟨a, b, k, rfl⟩ : ∃ (a b k : Fin 128), x = ix3 a b k := ⟨x 0, x 1, x 2, eq_ix3 x⟩
  unfold blockOuter
  refine (stored_apply _ _ a b k).trans ?_
  refine congrArg₂ (FloatOps.mulf (F := Ideal) (φ := .f32)) (congrArg x0 ?_) (congrArg x1 ?_)
  · funext ax; apply Fin.ext
    match ax with
    | ⟨0, _⟩ => rfl
    | ⟨1, _⟩ => rfl
  · funext ax; apply Fin.ext
    match ax with
    | ⟨0, _⟩ => rfl
    | ⟨1, _⟩ => rfl

/-- What the body leaves in the output's staging buffer is that block: each of the two stored halves is the
    block's restriction to its half of the middle axis, and the halves cover the buffer. -/
theorem out_eq (c : Dev nD) (i : grid1.Coords) (arg2 : Memref sig .tc .vmem S128x256 .f32) (harg2 : arg2.IsWhole)
    (arg3 : Memref sig .tc .vmem S128x128 .f32) (harg3 : arg3.IsWhole) (arg4 : Memref sig .tc .vmem S128x256x128 .f32) (harg4 : arg4.IsWhole)
    (x0 : Vec Ideal S128x256 .f32) (x1 : Vec Ideal S128x128 .f32) :
    out1_A_2 c i arg2 harg2 arg3 harg3 arg4 harg4 x0 x1 = blockOuter x0 x1 := by
  unfold out1_A_2
  rw [View.read_writes_eq_canon _ _ _ (cover1_A_2 c i arg2 harg2 arg3 harg3 arg4 harg4 x0 x1)]
  funext y
  refine View.canon_apply_of_pieces (blockOuter x0 x1) _ ?_ y (cover1_A_2 c i arg2 harg2 arg3 harg3 arg4 harg4 x0 x1 y)
  unfold kernelRun1_A
  dsimp only
  intro p hp
  simp only [List.mem_cons, List.not_mem_nil, or_false] at hp
  rcases hp with rfl | rfl
  · intro x
    simp only [View.readAt_eq_ld, harg3.read_unread, harg2.read_unread, second_half]
    exact half_eq x0 x1 128 _ _ _ x
  · intro x
    simp only [View.readAt_eq_ld, harg3.read_unread, harg2.read_unread]
    exact half_eq x0 x1 0 _ _ _ x

/-! ## From the blocks to the array -/

variable (V : (c : Dev nD) → (b : Ref sig .tc) → Buf (Elt Ideal) ((c : Thread nD τ).loc b))

/-- The printed index maps over the 32 grid points: the densities' block moves with the output's on both of its
    axes, the product's block moves with the output's rows and sits at column block 0. -/
theorem idx_facts : ∀ t : Fin cfg1.N, win1_0.index t (0 : Fin 2) = win1_2.index t (0 : Fin 3)
    ∧ win1_0.index t (1 : Fin 2) = win1_2.index t (1 : Fin 3)
    ∧ win1_1.index t (0 : Fin 2) = win1_2.index t (0 : Fin 3)
    ∧ win1_1.index t (1 : Fin 2) = 0
    ∧ win1_2.index t (0 : Fin 3) ≤ 15
    ∧ win1_2.index t (1 : Fin 3) ≤ 1
    ∧ win1_2.index t (2 : Fin 3) = 0 :=
  (by decide +kernel : ∀ t : Fin grid1.N, _)

/-- Each of the 16 × 2 blocks is some point's. -/
theorem idx_onto : ∀ (q0 : Fin 16) (q1 : Fin 2), ∃ t : Fin cfg1.N, win1_2.index t = ![q0.val, q1.val, 0] :=
  (by decide +kernel : ∀ (q0 : Fin 16) (q1 : Fin 2), ∃ t : Fin grid1.N, win1_2.index t = ![q0.val, q1.val, 0])

/-- What point t writes back is block t of the row-by-row outer product of the two arrays the region finds. -/
theorem flushed_eq (c : Dev nD) (t : Fin cfg1.N) :
    (dat1 V c).flushed 2 t
      = ((cfg1.win 2).blk t).view.read (Elt Ideal) (Cert.Spec.outer (V c main_arg0) (V c main_v0)) := by
  show (cfg1.win 2).cut (grid1.coords t) ((dat1 V c).after 2 t) = _
  rw [after1_2]
  unfold outsAt1
  refine (congrArg ((cfg1.win 2).cut (grid1.coords t))
    (out_eq c (grid1.coords t) (ms1_0 t) (hs1_0 t) (ms1_1 t) (hs1_1 t) (ms1_2 t) (hs1_2 t) (iblk1 V c 0 t) (iblk1 V c 1 t))).trans ?_
  obtain ⟨e0, e1, e2, e3, e4, e5, e6⟩ := idx_facts t
  funext j
  show FloatOps.mulf (F := Ideal) (φ := .f32) (V c main_arg0 (((cfg1.win 0).blk t).view.emb (ix2 (j 0) (j 1)))) (V c main_v0 (((cfg1.win 1).blk t).view.emb (ix2 (j 0) (j 2))))
    = FloatOps.mulf (F := Ideal) (φ := .f32) (V c main_arg0 (ix2 ((((cfg1.win 2).blk t).view.emb j) 0) ((((cfg1.win 2).blk t).view.emb j) 1))) (V c main_v0 (ix2 ((((cfg1.win 2).blk t).view.emb j) 0) ((((cfg1.win 2).blk t).view.emb j) 2)))
  have h0 : ((cfg1.win 0).blk t).view.emb (ix2 (j 0) (j 1)) = ix2 ((((cfg1.win 2).blk t).view.emb j) 0) ((((cfg1.win 2).blk t).view.emb j) 1) := by
    funext a; apply Fin.ext
    match a with
    | ⟨0, _⟩ => show win1_0.index t (0 : Fin 2) * 128 + 1 * (j 0).val = win1_2.index t (0 : Fin 3) * 128 + 1 * (j 0).val; omega
    | ⟨1, _⟩ => show win1_0.index t (1 : Fin 2) * 256 + 1 * (j 1).val = win1_2.index t (1 : Fin 3) * 256 + 1 * (j 1).val; omega
  have h1 : ((cfg1.win 1).blk t).view.emb (ix2 (j 0) (j 2)) = ix2 ((((cfg1.win 2).blk t).view.emb j) 0) ((((cfg1.win 2).blk t).view.emb j) 2) := by
    funext a; apply Fin.ext
    match a with
    | ⟨0, _⟩ => show win1_1.index t (0 : Fin 2) * 128 + 1 * (j 0).val = win1_2.index t (0 : Fin 3) * 128 + 1 * (j 0).val; omega
    | ⟨1, _⟩ => show win1_1.index t (1 : Fin 2) * 128 + 1 * (j 2).val = win1_2.index t (2 : Fin 3) * 128 + 1 * (j 2).val; omega
  rw [h0, h1]
  rfl

/-- An index of the result array is in point t's block iff each coordinate is in the block's range. -/
theorem mem_blk (t : Fin cfg1.N) (i : S2048x512x128.Idx) :
    i ∈ ((cfg1.win 2).blk t).view.set ↔ ∀ a : Fin 3, win1_2.index t a * S128x256x128.size a ≤ (i a).val ∧ (i a).val < win1_2.index t a * S128x256x128.size a + S128x256x128.size a := by
  show i ∈ ((View.whole main_v1).slice (win1_2.rect t)).set ↔ _
  rw [View.set_slice_whole, Rect.mem_set_unit]
  exact Iff.rfl

/-- The 32 blocks tile the result array: (n, i, k) is in the block of the point with row block n / 128 and
    middle block i / 256. -/
theorem cover (i : S2048x512x128.Idx) :
    ∃ t : Fin cfg1.N, (cfg1.win 2).flush t = true ∧ i ∈ ((cfg1.win 2).blk t).view.set := by
  have hi0 : (i 0).val < 2048 := (i 0).isLt
  have hi1 : (i 1).val < 512 := (i 1).isLt
  have hi2 : (i 2).val < 128 := (i 2).isLt
  obtain ⟨t, ht⟩ := idx_onto ⟨(i 0).val / 128, by omega⟩ ⟨(i 1).val / 256, by omega⟩
  have q0 : win1_2.index t (0 : Fin 3) = (i 0).val / 128 := congrFun ht 0
  have q1 : win1_2.index t (1 : Fin 3) = (i 1).val / 256 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 128 ≤ (i 0).val ∧ (i 0).val < win1_2.index t (0 : Fin 3) * 128 + 128; omega
  | ⟨1, _⟩ => show win1_2.index t (1 : Fin 3) * 256 ≤ (i 1).val ∧ (i 1).val < win1_2.index t (1 : Fin 3) * 256 + 256; omega
  | ⟨2, _⟩ => show win1_2.index t (2 : Fin 3) * 128 ≤ (i 2).val ∧ (i 2).val < win1_2.index t (2 : Fin 3) * 128 + 128; omega

/-- After the second region its output array is the row-by-row outer product of the densities and the product
    array it found. -/
theorem result_array (c : Dev nD) :
    (dat1 V c).arrAt 2 cfg1.N = Cert.Spec.outer (V c main_arg0) (V c main_v0) :=
  (dat1 V c).arrAt_eq_of_cover 2 _ (fun t _ => flushed_eq V c t) cover

end Cert.KernelIdeal.Outer

end
-- ==== Proof.KernelValue.lean ====
/-
  The idealized kernel's result, as one function of its two arguments. The second region leaves in the result
  buffer the row-by-row outer product of the densities and the product array as it finds them; it finds the
  densities as launched (the first region only reads them) and the product array as the first region left it:
  the matrix product of the launched densities and weights. Together: the specification's result.
-/
import proofs.«155502_j24240795419358_2_alg».proof.Proof.KernelRun
import proofs.«155502_j24240795419358_2_alg».proof.Proof.Dw
import proofs.«155502_j24240795419358_2_alg».proof.Proof.Outer

set_option maxRecDepth 16384

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The second region's output array after the run, from the launch memory. -/
theorem result_value (c : Dev nD) :
    (dat1 (V1 m ρ) c).arrAt 2 cfg1.N
      = Cert.Spec.result (m ((c : Thread nD τ).loc main_arg0)) (m ((c : Thread nD τ).loc main_arg1)) :=
  (Cert.KernelIdeal.Outer.result_array (V1 m ρ) c).trans
    (congrArg₂ Cert.Spec.outer (Cert.KernelIdeal.Named.densities_after m ρ c)
      ((Cert.KernelIdeal.Named.product_after m ρ c).trans (Cert.KernelIdeal.Dw.product_array (V0 m ρ) c)))

/-- Every weakly fair execution of the idealized kernel terminates, nothing faulting, with the result buffer at the
    specification's result of the launched arguments and the arguments unchanged. -/
theorem run : θ_run defs (onTc (τ := τ) (main (F := Ideal))) ⟨m, fun _ => 0, ρ⟩ (fun r => ∀ c : Dev nD,
      r.2.mem ((c.tc : Thread nD τ).loc main_v1)
        = Cert.Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_value m ρ c), (h c).2⟩)
    (Cert.KernelIdeal.Named.run_named m ρ)

end Cert.KernelIdeal.Result

end
-- ==== Proof.RefValue.lean ====
/-
  The reference computes the specification. Its six host operations, read at an index (n, i, k) of the result:
  the final multiply takes, on the left, the densities broadcast twice — an added unit axis, then along the last
  axis — which reads d (n, i); on the right the host's matrix product broadcast twice — an added unit middle axis,
  then along it — which reads (d · w) (n, k), the sum over j of d (n, j) · w (j, k).
-/
import proofs.«155502_j24240795419358_2_alg».proof.Proof.Gen.ReferenceIdeal.Read
import proofs.«155502_j24240795419358_2_alg».proof.Proof.Spec

noncomputable section

namespace Cert.ReferenceIdeal.RefValue

open Cert.ReferenceIdeal Cert.ReferenceIdeal.Read Idealize.ShloMosaic Idealize.ShloMosaic.ValueIdx

/-- The reference's last stage, as a whole array, is the specification's result. -/
theorem reference_eq (d : (⟨S2048x512, .f32⟩ : BufTy).Contents (Elt Ideal)) (w : (⟨S512x128, .f32⟩ : BufTy).Contents (Elt Ideal)) :
    val_main_v5 (F := Ideal) d w = Cert.Spec.result d w := by
  funext i
  have e1 : idx_main_v1 (idx_main_v3 i) = ix2 (i 0) (i 1) :=
    funext fun a => Fin.ext (by match a with | ⟨0, _⟩ => rfl | ⟨1, _⟩ => rfl)
  have e2 : ∀ k : Fin 512, lidx_main_v0 (idx_main_v2 (idx_main_v4 i)) k = ix2 (i 0) k := fun k =>
    funext fun a => Fin.ext (by match a with | ⟨0, _⟩ => rfl | ⟨1, _⟩ => rfl)
  have e3 : ∀ k : Fin 512, ridx_main_v0 (idx_main_v2 (idx_main_v4 i)) k = ix2 k (i 2) := fun k =>
    funext fun a => Fin.ext (by match a with | ⟨0, _⟩ => rfl | ⟨1, _⟩ => rfl)
  rw [val_main_v5_apply, val_main_v3_apply, val_main_v1_apply, val_main_v4_apply, val_main_v2_apply, val_main_v0_apply]
  simp only [e1, e2, e3, Ideal.mulf_def]
  rfl

end Cert.ReferenceIdeal.RefValue

end
-- ==== Proof.lean ====
/-
  The kernel computes, for densities d (2048 × 512) and weights w (512 × 128), out (n, i, k) = d (n, i) · (d · w) (n, k)
  in two kernel regions: the first forms the product array d · w block of rows by block of rows on the matrix
  unit; the second forms, block by block, the outer product of each row of d with the matching row of d · w. The
  reference computes the same array on the host: a matrix product, two broadcasts of each factor, a multiply.

  At the ideal values both are the same function of (d, w) with no law of the extended reals involved: the
  kernel's roundings to a narrower format before the matrix unit are the identity, the matrix unit's product
  into a zero accumulator and the host's product are the same sum, and both multiply d (n, i) on the left by
  (d · w) (n, k) on the right. The precondition (finite inputs) is never opened.

  The three frames are the generated ones (the reference's is its generated run with the result dropped); the
  ideal pass rewrote nothing, so the idealization claim is trivial; the value claim sets the kernel's run
  (Proof/KernelValue.lean) beside the reference's run read index by index (Proof/RefValue.lean), both at the
  specification's result (Proof/Spec.lean).
-/
import proofs.«155502_j24240795419358_2_alg».proof.Defs
import proofs.«155502_j24240795419358_2_alg».proof.Proof.Gen.Kernel
import proofs.«155502_j24240795419358_2_alg».proof.Proof.Gen.Kernel.Skeleton
import proofs.«155502_j24240795419358_2_alg».proof.Proof.Gen.Kernel.Launch
import proofs.«155502_j24240795419358_2_alg».proof.Proof.Gen.Kernel.Points
import proofs.«155502_j24240795419358_2_alg».proof.Proof.Gen.Kernel.Frame
import proofs.«155502_j24240795419358_2_alg».proof.Proof.Gen.KernelIdeal
import proofs.«155502_j24240795419358_2_alg».proof.Proof.Gen.KernelIdeal.Skeleton
import proofs.«155502_j24240795419358_2_alg».proof.Proof.Gen.KernelIdeal.Launch
import proofs.«155502_j24240795419358_2_alg».proof.Proof.Gen.KernelIdeal.Points
import proofs.«155502_j24240795419358_2_alg».proof.Proof.Gen.KernelIdeal.Frame
import proofs.«155502_j24240795419358_2_alg».proof.Proof.Gen.ReferenceIdeal
import proofs.«155502_j24240795419358_2_alg».proof.Proof.Gen.ReferenceIdeal.Run
import proofs.«155502_j24240795419358_2_alg».proof.Proof.Gen.ReferenceIdeal.Read
import proofs.«155502_j24240795419358_2_alg».proof.Proof.Gen.Pre_finite_inputs
import proofs.«155502_j24240795419358_2_alg».proof.Proof.KernelValue
import proofs.«155502_j24240795419358_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- From memories that agree on the arguments, both idealized programs end with the result buffer at the
    specification's result of those arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v5_eq]
  exact Cert.ReferenceIdeal.RefValue.reference_eq _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
